-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 129
  | .vmem => 10
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000x128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S50000, .i32⟩
  | 71 => ⟨S1x800000, .i32⟩
  | 72 => ⟨S800000, .i32⟩
  | 73 => ⟨S850000, .i32⟩
  | 74 => ⟨S1x800000, .i32⟩
  | 75 => ⟨S800000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.GcnGlue.lean ====
/-
  A two-layer graph convolution with symmetric degree normalisation, as a function of its dense products.

  The graph has 50000 nodes and 800000 directed edges (row 0 of the edge table the sources, row 1 the targets); every
  node also gets a loop to itself, so there are 850000 entries in all. With deg(v) the number of entries whose target
  is v and dinv(v) = deg(v)^(-1/2) where deg(v) > 0 (and 0 elsewhere), one layer sends a table H of node features to

      out(v, :) = Σ over entries e with target v of  dinv(source e) · dinv(target e) · H(source e, :)   +  bias.

  A layer is applied to the product H = X · W of the node features with a weight matrix. The first layer is followed
  by a maximum with zero, the second is not. Everything on this page except the two products X · W is the SAME chain
  of gathers, scatter-additions and broadcasts in the kernel's program and in the reference: it is named here once,
  as functions of the edge table, the bias and the product H, so that the two programs can be compared through the
  products alone and the chain itself is never opened.
-/
import proofs.«140301_j48567490183709_1_alg».proof.ReferenceIdeal

noncomputable section

namespace Cert.Gcn

open Idealize.ShloMosaic Cert.ReferenceIdeal Cert.ReferenceIdeal.Facts₀

variable {F : FTy → Type} [FloatOps F] [Cert.ReferenceIdeal.Facts₀]

/-- The edge table: two rows of 800000 node numbers. -/
abbrev Edges (F : FTy → Type) : Type := (⟨S2x800000, .i32⟩ : BufTy).Contents (Elt F)
/-- One node number per entry (edge or loop). -/
abbrev Entries (F : FTy → Type) : Type := (⟨S850000, .i32⟩ : BufTy).Contents (Elt F)

/-- The source of every entry: row 0 of the edge table, then node v for the loop at v. -/
def src (E : Edges F) : Entries F :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- The target of every entry: row 1 of the edge table, then node v for the loop at v. -/
def dst (E : Edges F) : Entries F :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- A node number read as an index into 50000 rows: a negative number counts from the end. -/
def wrap (v : Entries F) : Entries F :=
  select (cmpi .slt v (broadcastInDim S850000 ![] bcast_S_S850000 (constantI S_ 32 0#32))) (addi v (broadcastInDim S850000 ![] bcast_S_S850000 (constantI S_ 32 50000#32))) v

/-- The entries' node numbers laid as a column of index vectors of length one. -/
def col (v : Entries F) : (⟨S850000x1, .i32⟩ : BufTy).Contents (Elt F) :=
  broadcastInDim S850000x1 ![0] bcast_S850000_S850000x1_0 v

/-- deg(v): one added at its target for every entry, from zero. -/
def deg (E : Edges F) : (⟨S50000, .f32⟩ : BufTy).Contents (Elt F) :=
  Host.scatterAdd scatter_S50000_S850000x1_S850000_n_0_0_1 (broadcastInDim S50000 ![] bcast_S_S50000 (constant S_ .f32 0x00000000#32)) (col (dst E)) (broadcastInDim S850000 ![] bcast_S_S850000 (constant S_ .f32 0x3F800000#32))

/-- dinv(v): deg(v)^(-1/2) where deg(v) > 0, zero elsewhere. -/
def dinv (E : Edges F) : (⟨S50000, .f32⟩ : BufTy).Contents (Elt F) :=
  select (cmpf (F := F) .ogt (deg E) (broadcastInDim S50000 ![] bcast_S_S50000 (constant S_ .f32 0x00000000#32))) (Host.rsqrt (deg E)) (broadcastInDim S50000 ![] bcast_S_S50000 (id (constant S_ .f32 0x00000000#32)))

/-- The weight of every entry: dinv at its source times dinv at its target. -/
def weight (E : Edges F) : (⟨S850000, .f32⟩ : BufTy).Contents (Elt F) :=
  mulf (Host.gather gather_S50000_S850000x1_S850000_n_0_n_n_0_1_1 (dinv E) (col (wrap (src E)))) (Host.gather gather_S50000_S850000x1_S850000_n_0_n_n_0_1_1 (dinv E) (col (wrap (dst E))))

/-- The first layer's aggregation of a 50000 × 128 table H: the weighted source rows added at the targets. -/
def aggregate128 (E : Edges F) (H : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (col (dst E)) (mulf (Host.gather gather_S50000x128_S850000x1_S850000x128_1_0_n_n_0_1_1128 H (col (wrap (src E)))) (broadcastInDim S850000x128 ![0, 1] bcast_S850000x1_S850000x128_0_1 (broadcastInDim S850000x1 ![0] bcast_S850000_S850000x1_0 (weight E))))

/-- The first layer after its product: aggregation, the bias added to every row, the maximum with zero. -/
def layer1 (E : Edges F) (b : (⟨S128, .f32⟩ : BufTy).Contents (Elt F)) (H : (⟨S50000x128, .f32⟩ : BufTy).Contents (Elt F)) :
    (⟨S50000x128, .f32⟩ : BufTy).Contents (Elt F) :=
  maximumf (addf (aggregate128 E H) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The second layer's aggregation of a 50000 × 64 table H. -/
def aggregate64 (E : Edges F) (H : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (col (dst E)) (mulf (Host.gather gather_S50000x64_S850000x1_S850000x64_1_0_n_n_0_1_164 H (col (wrap (src E)))) (broadcastInDim S850000x64 ![0, 1] bcast_S850000x1_S850000x64_0_1 (broadcastInDim S850000x1 ![0] bcast_S850000_S850000x1_0 (weight E))))

/-- The second layer after its product: aggregation and the bias added to every row. -/
def layer2 (E : Edges F) (b : (⟨S64, .f32⟩ : BufTy).Contents (Elt F)) (H : (⟨S50000x64, .f32⟩ : BufTy).Contents (Elt F)) :
    (⟨S50000x64, .f32⟩ : BufTy).Contents (Elt F) :=
  addf (aggregate64 E H) (broadcastInDim S50000x64 ![0, 1] bcast_S1x64_S50000x64_0_1 (broadcastInDim S1x64 ![1] bcast_S64_S1x64_1 b))

/-- The whole network: layer 2 of (layer 1 of X · W1) · W2, the two products the host's plain ones. -/
def net (X : (⟨S50000x128, .f32⟩ : BufTy).Contents (Elt F)) (E : Edges F) (W1 : (⟨S128x128, .f32⟩ : BufTy).Contents (Elt F))
    (b1 : (⟨S128, .f32⟩ : BufTy).Contents (Elt F)) (W2 : (⟨S128x64, .f32⟩ : BufTy).Contents (Elt F))
    (b2 : (⟨S64, .f32⟩ : BufTy).Contents (Elt F)) : (⟨S50000x64, .f32⟩ : BufTy).Contents (Elt F) :=
  layer2 E b2 (Host.dotGeneral dot_S50000x128_S128x64_S50000x64_1_0_0_1_n_n none
    (layer1 E b1 (Host.dotGeneral dot_S50000x128_S128x128_S50000x128_1_0_0_1_n_n none X W1)) W2)

end Cert.Gcn

end
-- ==== Proof.ReferenceValue.lean ====
/-
  The reference's result is the network of `Cert.Gcn`: both layers' chains of host operations are the named ones, and
  the two products inside are the host's plain products of the arguments.
-/
import proofs.«140301_j48567490183709_1_alg».proof.Proof.ReferenceRun
import proofs.«140301_j48567490183709_1_alg».proof.Proof.GcnGlue

set_option maxRecDepth 16384

noncomputable section

namespace Cert.ReferenceIdeal.NetValue

open Cert.ReferenceIdeal Cert.ReferenceIdeal.Gen Idealize.ShloMosaic Idealize.ShloMosaic.TcCoe Idealize.SL.Sem

variable {F : FTy → Type} [FloatOps F]

/-- The term the reference's run leaves in its result buffer is the network applied to the six argument arrays. -/
theorem result_eq (m : (ℓ : Loc nD τ sig) → Buf (Elt F) ℓ) (c : Dev nD) :
    Cert.ReferenceIdeal.RunP.res_main_v94 m c
      = Cert.Gcn.net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v94 Cert.Gcn.net Cert.Gcn.layer2 Cert.Gcn.aggregate64 Cert.Gcn.layer1
    Cert.Gcn.aggregate128 Cert.Gcn.weight Cert.Gcn.dinv Cert.Gcn.deg Cert.Gcn.col Cert.Gcn.wrap Cert.Gcn.src Cert.Gcn.dst
  rfl

end Cert.ReferenceIdeal.NetValue

end
-- ==== Proof.KernelRun.lean ====
/-
  The kernel's program, run: where its result buffer ends.

  The program is two launches of the matrix-product kernel among stretches of host operations. Its buffers pass
  through ten stages: the launch memory; after the first launch, its output array at what the ten grid points wrote
  back and every other buffer untouched; after each of the four stretches of host operations between the launches, the
  stretch's operations applied; after the second launch, its output array likewise; after each of the last three
  stretches. The last stage is the fold `Gen.W9`. Every weakly fair execution terminates, without a fault, with every
  buffer the program keeps at that last stage — in particular the result buffer — and the six argument arrays as they
  were launched.
-/
import proofs.«140301_j48567490183709_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates, nothing faulting; the
    result buffer then holds the last stage of the fold through the program, and the arguments are as launched. The
    segments, their thread states and the launch are the frame's; what is read off the last thread state is every
    buffer the program keeps, the result's among them. -/
theorem run : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«140301_j48567490183709_1_alg».proof.Proof.LibPlainMatmul
import proofs.«140301_j48567490183709_1_alg».proof.Proof.LibHostReads
import proofs.«140301_j48567490183709_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.MatmulRegion.lean ====
/-
  The two launches of the matrix-product kernel, each read as ONE product of whole arrays.

  A launch cuts the 50000 rows of its left operand into ten blocks of 5000. At grid point t the kernel's body loads
  rows 5000·t … 5000·t + 4999 of the left operand and the whole right operand, rounds both to a narrower float format
  (which changes nothing on the extended reals), multiplies them on the matrix unit into a zero accumulator, and
  stores the 5000 rows of the product; the pipeline writes them back as rows 5000·t … of the output array. Entry
  (r, c) of a product depends only on row r of the left operand, so block t of the output is block t of the product
  of the WHOLE arrays, and the ten blocks cover the output: after the launch the output array IS the host's plain
  product of the two operand arrays as the launch found them.
-/
import proofs.«140301_j48567490183709_1_alg».proof.Proof.Gen.KernelIdeal.Frame
import proofs.«140301_j48567490183709_1_alg».proof.Proof.LibBlockRows
import Idealize.ShloMosaic.Lib.Pipeline.Value
import Idealize.ShloMosaic.Lib.ValueIdx

set_option maxRecDepth 16384

noncomputable section

namespace Cert.KernelIdeal.MatmulRegion

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when a launch is entered
variable (V : (c : Dev nD) → (b : Ref sig .tc) → Buf (Elt Ideal) ((c : Thread nD τ).loc b))

theorem hz : (![0, 0] : Fin 2 → Nat) = fun _ => 0 := funext fun a => by fin_cases a <;> rfl

/-! ## The first launch: X (50000 × 128) by W1 (128 × 128) -/

theorem N0 : cfg0.N = 10 := N_0

/-- Row p of block t is row 5000·t + p of the array. -/
def row0 (t : Fin cfg0.N) (p : Fin 5000) : Fin 50000 :=
  ⟨5000 * t.val + p.val, by have ht : t.val < 10 := N0 ▸ t.isLt; have := p.isLt; omega⟩

/-- The block index maps, decided over the grid: the left operand's and the output's blocks move down the rows with
    the grid point, the right operand's stays. -/
theorem idx0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The product of the whole arrays. -/
def product0 (c : Dev nD) : FVec Ideal ⟨2, ![50000, 128]⟩ .f32 :=
  Host.dotGeneral (F := Ideal) (φ₁ := .f32) (φ₂ := .f32) (DotDims.plain 50000 128 128) none (V c main_arg0) (V c main_arg2)

/-- The body's stored value, for a left block whose rows are rows ρ p of A and a right block that is G: the picked
    rows of A · G. -/
theorem stored0 (ρ : Fin 5000 → Fin 50000) (x0 : Vec Ideal S5000x128 .f32) (x1 : Vec Ideal S128x128 .f32)
    (A : FVec Ideal ⟨2, ![50000, 128]⟩ .f32) (G : FVec Ideal ⟨2, ![128, 128]⟩ .f32)
    (ha : ∀ (p : Fin 5000) (k : Fin 128), x0 (ix2 p k) = A (ix2 (ρ p) k))
    (hg : ∀ (k : Fin 128) (n : Fin 128), x1 (ix2 k n) = G (ix2 k n)) :
    k0_pay1 x0 x1 = Cert.BlockRows.rowsOf ρ (Host.dotGeneral (F := Ideal) (DotDims.plain 50000 128 128) none A G) := by
  unfold k0_pay1
  exact Cert.BlockRows.matmul_rows ρ none none _ _ A G (fun p k => ha p k) (fun k n => hg k n)

/-- The left operand's block at point t, read at (p, k). -/
theorem left0 (c : Dev nD) (t : Fin cfg0.N) (p : Fin 5000) (k : Fin 128) :
    iblk0 V c 0 t (ix2 p k) = V c main_arg0 (ix2 (row0 t p) k) := by
  show V c main_arg0 (((cfg0.win 0).blk t).view.emb (ix2 p k)) = V c main_arg0 (ix2 (row0 t p) k)
  refine congrArg (V c main_arg0) (funext fun a => Fin.ext ?_)
  obtain ⟨-, -, e0, e1, -, -⟩ := idx0 t
  match a with
  | ⟨0, _⟩ => show win0_0.index t (0 : Fin 2) * 5000 + 1 * p.val = 5000 * t.val + p.val; omega
  | ⟨1, _⟩ => show win0_0.index t (1 : Fin 2) * 128 + 1 * k.val = k.val; omega

/-- The right operand's block at point t is the whole array. -/
theorem right0 (c : Dev nD) (t : Fin cfg0.N) (k : Fin 128) (n : Fin 128) :
    iblk0 V c 1 t (ix2 k n) = V c main_arg2 (ix2 k n) := by
  show V c main_arg2 (((cfg0.win 1).blk t).view.emb (ix2 k n)) = V c main_arg2 (ix2 k n)
  refine congrArg (V c main_arg2) (funext fun a => Fin.ext ?_)
  obtain ⟨-, -, -, -, e0, e1⟩ := idx0 t
  match a with
  | ⟨0, _⟩ => show win0_1.index t (0 : Fin 2) * 128 + 1 * k.val = k.val; omega
  | ⟨1, _⟩ => show win0_1.index t (1 : Fin 2) * 128 + 1 * n.val = n.val; omega

/-- What point t writes back is block t of the product of the whole arrays. -/
theorem flushed0 (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [stored0 (row0 t) (iblk0 V c 0 t) (iblk0 V c 1 t) (V c main_arg0) (V c main_arg2) (left0 V c t) (right0 V c t)]
  funext j
  show product0 V c (ix2 (row0 t (j 0)) (j 1)) = product0 V c (((cfg0.win 2).blk t).view.emb j)
  refine congrArg (product0 V c) (funext fun a => Fin.ext ?_)
  obtain ⟨e0, e1, -, -, -, -⟩ := idx0 t
  match a with
  | ⟨0, _⟩ => show 5000 * t.val + (j 0).val = win0_2.index t (0 : Fin 2) * 5000 + 1 * (j 0).val; omega
  | ⟨1, _⟩ => show (j 1).val = win0_2.index t (1 : Fin 2) * 128 + 1 * (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the output lies in the block of point r / 5000: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by rw [N0]; omega
  refine ⟨⟨(i 0).val / 5000, ht⟩, flush0_2 _, ?_⟩
  rw [mem_blk0]
  obtain ⟨e0, e1, -, -, -, -⟩ := idx0 ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e1]; omega

/-- After the first launch its output array is the product of the operand arrays as the launch found them. -/
theorem output0 (c : Dev nD) : (dat0 V c).arrAt 2 cfg0.N = product0 V c :=
  (dat0 V c).arrAt_eq_of_cover 2 (product0 V c) (fun t _ => flushed0 V c t) cover0

/-! ## The second launch: the first layer's table (50000 × 128) by W2 (128 × 64) -/

theorem N1 : cfg1.N = 10 := N_1

/-- Row p of block t is row 5000·t + p of the array. -/
def row1 (t : Fin cfg1.N) (p : Fin 5000) : Fin 50000 :=
  ⟨5000 * t.val + p.val, by have ht : t.val < 10 := N1 ▸ t.isLt; have := p.isLt; omega⟩

/-- The block index maps, decided over the grid: the left operand's and the output's blocks move down the rows with
    the grid point, the right operand's stays. -/
theorem idx1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The product of the whole arrays. -/
def product1 (c : Dev nD) : FVec Ideal ⟨2, ![50000, 64]⟩ .f32 :=
  Host.dotGeneral (F := Ideal) (φ₁ := .f32) (φ₂ := .f32) (DotDims.plain 50000 128 64) none (V c main_v47) (V c main_arg4)

/-- The body's stored value, for a left block whose rows are rows ρ p of A and a right block that is G: the picked
    rows of A · G. -/
theorem stored1 (ρ : Fin 5000 → Fin 50000) (x0 : Vec Ideal S5000x128 .f32) (x1 : Vec Ideal S128x64 .f32)
    (A : FVec Ideal ⟨2, ![50000, 128]⟩ .f32) (G : FVec Ideal ⟨2, ![128, 64]⟩ .f32)
    (ha : ∀ (p : Fin 5000) (k : Fin 128), x0 (ix2 p k) = A (ix2 (ρ p) k))
    (hg : ∀ (k : Fin 128) (n : Fin 64), x1 (ix2 k n) = G (ix2 k n)) :
    k1_pay1 x0 x1 = Cert.BlockRows.rowsOf ρ (Host.dotGeneral (F := Ideal) (DotDims.plain 50000 128 64) none A G) := by
  unfold k1_pay1
  rw [shapeCast_self]
  exact Cert.BlockRows.matmul_rows ρ none none _ _ A G (fun p k => ha p k) (fun k n => hg k n)

/-- The left operand's block at point t, read at (p, k). -/
theorem left1 (c : Dev nD) (t : Fin cfg1.N) (p : Fin 5000) (k : Fin 128) :
    iblk1 V c 0 t (ix2 p k) = V c main_v47 (ix2 (row1 t p) k) := by
  show V c main_v47 (((cfg1.win 0).blk t).view.emb (ix2 p k)) = V c main_v47 (ix2 (row1 t p) k)
  refine congrArg (V c main_v47) (funext fun a => Fin.ext ?_)
  obtain ⟨-, -, e0, e1, -, -⟩ := idx1 t
  match a with
  | ⟨0, _⟩ => show win1_0.index t (0 : Fin 2) * 5000 + 1 * p.val = 5000 * t.val + p.val; omega
  | ⟨1, _⟩ => show win1_0.index t (1 : Fin 2) * 128 + 1 * k.val = k.val; omega

/-- The right operand's block at point t is the whole array. -/
theorem right1 (c : Dev nD) (t : Fin cfg1.N) (k : Fin 128) (n : Fin 64) :
    iblk1 V c 1 t (ix2 k n) = V c main_arg4 (ix2 k n) := by
  show V c main_arg4 (((cfg1.win 1).blk t).view.emb (ix2 k n)) = V c main_arg4 (ix2 k n)
  refine congrArg (V c main_arg4) (funext fun a => Fin.ext ?_)
  obtain ⟨-, -, -, -, e0, e1⟩ := idx1 t
  match a with
  | ⟨0, _⟩ => show win1_1.index t (0 : Fin 2) * 128 + 1 * k.val = k.val; omega
  | ⟨1, _⟩ => show win1_1.index t (1 : Fin 2) * 64 + 1 * n.val = n.val; omega

/-- What point t writes back is block t of the product of the whole arrays. -/
theorem flushed1 (c : Dev nD) (t : Fin cfg1.N) :
    (dat1 V c).flushed 2 t = ((cfg1.win 2).blk t).view.read (Elt Ideal) (product1 V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  rw [stored1 (row1 t) (iblk1 V c 0 t) (iblk1 V c 1 t) (V c main_v47) (V c main_arg4) (left1 V c t) (right1 V c t)]
  funext j
  show product1 V c (ix2 (row1 t (j 0)) (j 1)) = product1 V c (((cfg1.win 2).blk t).view.emb j)
  refine congrArg (product1 V c) (funext fun a => Fin.ext ?_)
  obtain ⟨e0, e1, -, -, -, -⟩ := idx1 t
  match a with
  | ⟨0, _⟩ => show 5000 * t.val + (j 0).val = win1_2.index t (0 : Fin 2) * 5000 + 1 * (j 0).val; omega
  | ⟨1, _⟩ => show (j 1).val = win1_2.index t (1 : Fin 2) * 64 + 1 * (j 1).val; omega

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row r of the output lies in the block of point r / 5000: the ten blocks cover the array. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 5000 < cfg1.N := by rw [N1]; omega
  refine ⟨⟨(i 0).val / 5000, ht⟩, flush1_2 _, ?_⟩
  rw [mem_blk1]
  obtain ⟨e0, e1, -, -, -, -⟩ := idx1 ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e1]; omega

/-- After the second launch its output array is the product of the operand arrays as the launch found them. -/
theorem output1 (c : Dev nD) : (dat1 V c).arrAt 2 cfg1.N = product1 V c :=
  (dat1 V c).arrAt_eq_of_cover 2 (product1 V c) (fun t _ => flushed1 V c t) cover1

end Cert.KernelIdeal.MatmulRegion

end
-- ==== Proof.HostStretches.lean ====
/-
  The host operations of the kernel's program around its two launches, read as functions.

  Between the first launch and the second the program computes, from the edge table, the first bias and the first
  launch's output array H, the table max(aggregate(H) + bias, 0): this is `Cert.Gcn.layer1`. After the second launch
  it computes, from the edge table, the second bias and the second launch's output, aggregate(H) + bias: this is
  `Cert.Gcn.layer2`. Both are stated for ANY contents of the buffers the stretch starts from, so that the launches'
  output arrays enter as what they are, whatever they are. No operation of either stretch writes an argument array.
-/
import proofs.«140301_j48567490183709_1_alg».proof.Proof.Gen.KernelIdeal.Launch
import proofs.«140301_j48567490183709_1_alg».proof.Proof.GcnGlue
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable {F : FTy → Type} [FloatOps F] [Cert.ReferenceIdeal.Facts₀]

/-- The buffers after the four stretches of host operations between the two launches, from contents `V`. -/
abbrev between (V : Valuation τ sig (Elt F)) : Valuation τ sig (Elt F) :=
  after hostOps1_3 (after hostOps1_2 (after hostOps1_1 (after hostOps1 V)))

/-- The buffers after the three stretches of host operations that follow the second launch, from contents `V`. -/
abbrev closing (V : Valuation τ sig (Elt F)) : Valuation τ sig (Elt F) :=
  after hostOps2_2 (after hostOps2_1 (after hostOps2 V))

set_option maxHeartbeats 20000000 in
/-- Between the launches the second launch's left operand is made: the first layer of the first launch's output. -/
theorem between_v47 (V : Valuation τ sig (Elt F)) :
    between V (Proc.devRef .tc main_v47)
      = Cert.Gcn.layer1 (F := F) (V (Proc.devRef .tc main_arg1)) (V (Proc.devRef .tc main_arg3)) (V (Proc.devRef .tc main_v0)) := by
  unfold Cert.Gcn.layer1 Cert.Gcn.aggregate128 Cert.Gcn.weight Cert.Gcn.dinv Cert.Gcn.deg Cert.Gcn.col Cert.Gcn.wrap Cert.Gcn.src Cert.Gcn.dst
  after_results_simp
  rfl

set_option maxHeartbeats 20000000 in
/-- After the second launch the result is made: the second layer of the second launch's output. -/
theorem closing_v94 (V : Valuation τ sig (Elt F)) :
    closing V (Proc.devRef .tc main_v94)
      = Cert.Gcn.layer2 (F := F) (V (Proc.devRef .tc main_arg1)) (V (Proc.devRef .tc main_arg5)) (V (Proc.devRef .tc main_v48)) := by
  unfold Cert.Gcn.layer2 Cert.Gcn.aggregate64 Cert.Gcn.weight Cert.Gcn.dinv Cert.Gcn.deg Cert.Gcn.col Cert.Gcn.wrap Cert.Gcn.src Cert.Gcn.dst
  after_results_simp
  rfl

set_option maxHeartbeats 20000000 in
/-- The operations between the launches leave the edge table as it was. -/
theorem between_arg1 (V : Valuation τ sig (Elt F)) : between V (Proc.devRef .tc main_arg1) = V (Proc.devRef .tc main_arg1) := by
  after_results_simp

set_option maxHeartbeats 20000000 in
/-- The operations between the launches leave the second weight matrix as it was. -/
theorem between_arg4 (V : Valuation τ sig (Elt F)) : between V (Proc.devRef .tc main_arg4) = V (Proc.devRef .tc main_arg4) := by
  after_results_simp

set_option maxHeartbeats 20000000 in
/-- The operations between the launches leave the second bias as it was. -/
theorem between_arg5 (V : Valuation τ sig (Elt F)) : between V (Proc.devRef .tc main_arg5) = V (Proc.devRef .tc main_arg5) := by
  after_results_simp

end Cert.KernelIdeal.Stretches

end
-- ==== Proof.KernelValue.lean ====
/-
  The kernel's result is the network of `Cert.Gcn` applied to its six argument arrays.

  Follow the buffers through the program. The first launch leaves X · W1 in its output array and touches nothing
  else; the host operations between the launches turn that array into the first layer's table and leave the edge
  table, the second weight matrix and the second bias alone; the second launch leaves (first layer's table) · W2 in
  its output array; the closing host operations turn that into the second layer's table, which is the result. Each
  product is the host's plain product of whole arrays, so the result is `Cert.Gcn.net` of the arguments.
-/
import proofs.«140301_j48567490183709_1_alg».proof.Proof.Gen.KernelIdeal.Frame
import proofs.«140301_j48567490183709_1_alg».proof.Proof.MatmulRegion
import proofs.«140301_j48567490183709_1_alg».proof.Proof.HostStretches

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) [Cert.ReferenceIdeal.Facts₀]

/-- After the first launch its output array holds X · W1. -/
theorem first_product (c : Dev nD) :
    W1 m ρ c (Proc.devRef .tc main_v0)
      = Host.dotGeneral (F := Ideal) (φ₁ := .f32) (φ₂ := .f32) (DotDims.plain 50000 128 128) none
          (m ((c.tc : Thread nD τ).loc main_arg0)) (m ((c.tc : Thread nD τ).loc main_arg2)) :=
  (W1_arr m ρ c 2).trans (MatmulRegion.output0 (V0 m ρ) c)

/-- The first launch leaves every buffer that is not one of its three arrays as launched. -/
theorem first_arg1 (c : Dev nD) : W1 m ρ c (Proc.devRef .tc main_arg1) = m ((c.tc : Thread nD τ).loc main_arg1) :=
  W1_of_ne m ρ c main_arg1 (by decide)
theorem first_arg3 (c : Dev nD) : W1 m ρ c (Proc.devRef .tc main_arg3) = m ((c.tc : Thread nD τ).loc main_arg3) :=
  W1_of_ne m ρ c main_arg3 (by decide)
theorem first_arg4 (c : Dev nD) : W1 m ρ c (Proc.devRef .tc main_arg4) = m ((c.tc : Thread nD τ).loc main_arg4) :=
  W1_of_ne m ρ c main_arg4 (by decide)
theorem first_arg5 (c : Dev nD) : W1 m ρ c (Proc.devRef .tc main_arg5) = m ((c.tc : Thread nD τ).loc main_arg5) :=
  W1_of_ne m ρ c main_arg5 (by decide)

/-- When the second launch is entered its left operand holds the first layer's table. -/
theorem first_layer (c : Dev nD) :
    W5 m ρ c (Proc.devRef .tc main_v47)
      = Cert.Gcn.layer1 (F := Ideal) (m ((c.tc : Thread nD τ).loc main_arg1)) (m ((c.tc : Thread nD τ).loc main_arg3))
          (Host.dotGeneral (F := Ideal) (φ₁ := .f32) (φ₂ := .f32) (DotDims.plain 50000 128 128) none
            (m ((c.tc : Thread nD τ).loc main_arg0)) (m ((c.tc : Thread nD τ).loc main_arg2))) :=
  (Stretches.between_v47 (W1 m ρ c)).trans (by rw [first_arg1, first_arg3, first_product])

/-- and the edge table, the second weight matrix and the second bias are still as launched. -/
theorem second_arg1 (c : Dev nD) : W5 m ρ c (Proc.devRef .tc main_arg1) = m ((c.tc : Thread nD τ).loc main_arg1) :=
  (Stretches.between_arg1 (W1 m ρ c)).trans (first_arg1 m ρ c)
theorem second_arg4 (c : Dev nD) : W5 m ρ c (Proc.devRef .tc main_arg4) = m ((c.tc : Thread nD τ).loc main_arg4) :=
  (Stretches.between_arg4 (W1 m ρ c)).trans (first_arg4 m ρ c)
theorem second_arg5 (c : Dev nD) : W5 m ρ c (Proc.devRef .tc main_arg5) = m ((c.tc : Thread nD τ).loc main_arg5) :=
  (Stretches.between_arg5 (W1 m ρ c)).trans (first_arg5 m ρ c)

/-- After the second launch its output array holds (first layer's table) · W2. -/
theorem second_product (c : Dev nD) :
    W6 m ρ c (Proc.devRef .tc main_v48)
      = Host.dotGeneral (F := Ideal) (φ₁ := .f32) (φ₂ := .f32) (DotDims.plain 50000 128 64) none
          (Cert.Gcn.layer1 (F := Ideal) (m ((c.tc : Thread nD τ).loc main_arg1)) (m ((c.tc : Thread nD τ).loc main_arg3))
            (Host.dotGeneral (F := Ideal) (φ₁ := .f32) (φ₂ := .f32) (DotDims.plain 50000 128 128) none
              (m ((c.tc : Thread nD τ).loc main_arg0)) (m ((c.tc : Thread nD τ).loc main_arg2))))
          (m ((c.tc : Thread nD τ).loc main_arg4)) :=
  ((W6_arr m ρ c 2).trans (MatmulRegion.output1 (V5 m ρ) c)).trans
    (congrArg₂ (Host.dotGeneral (F := Ideal) (φ₁ := .f32) (φ₂ := .f32) (DotDims.plain 50000 128 64) none)
      (first_layer m ρ c) (second_arg4 m ρ c))

/-- The result buffer ends holding the network of the six argument arrays. -/
theorem result_eq (c : Dev nD) :
    W9 m ρ c (Proc.devRef .tc main_v94)
      = Cert.Gcn.net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (Stretches.closing_v94 (W6 m ρ c)).trans (by
    rw [W6_of_ne m ρ c main_arg1 (by decide), W6_of_ne m ρ c main_arg5 (by decide), second_arg1, second_arg5, second_product]
    rfl)

end Cert.KernelIdeal.NetValue

end
-- ==== Proof.lean ====
/-
  A two-layer graph convolution (50000 nodes, 800000 edges and a loop at every node, features 128 → 128 → 64): the
  kernel's program against its reference, on the extended reals.

  The two programs differ in ONE thing. Each layer is a dense product H = X · W followed by a chain of host
  operations — degrees by a scatter-addition of ones, their inverse square roots, a gather of the rows of H at the
  edges' sources, a scaling, a scatter-addition at the targets, a bias (and after the first layer a maximum with
  zero). The chain is the same in both programs, operation for operation. The reference forms the product by the
  host's `dot_general`; the kernel's program forms it by a pipelined launch that cuts the 50000 rows into ten blocks
  of 5000, rounds both operands of a block to a narrower float format, multiplies them on the matrix unit into zeros
  and writes the block back. On the extended reals the rounding is the identity and both products are the plain sum
  Σ_k X (r, k) · W (k, c) — an equation between sums of the same terms, for which nothing has to be finite — and row r
  of the product needs row r of X only, so the ten blocks assemble the host's product of the whole arrays.

  So both programs end with `Cert.Gcn.net` of the six arguments in their result buffer:
    * Proof/GcnGlue.lean       the shared chain, named as functions of the edge table, a bias and a product;
    * Proof/MatmulRegion.lean  a launch's output array is the host's product of its operand arrays;
    * Proof/HostStretches.lean the host operations around the launches are the named chains;
    * Proof/KernelRun.lean     the kernel's program runs, and where its result buffer ends;
    * Proof/KernelValue.lean   that buffer is the network of the arguments;
    * Proof/ReferenceRun.lean, Proof/ReferenceValue.lean  the reference runs, and its result is the same network.
  The kernel's idealization rewrote no operation, so there is nothing to preserve; the frames of the two kernel
  programs are the generated ones and the reference's frame is its run with the result dropped.
-/
import proofs.«140301_j48567490183709_1_alg».proof.Defs
import proofs.«140301_j48567490183709_1_alg».proof.Proof.Gen.Kernel
import proofs.«140301_j48567490183709_1_alg».proof.Proof.Gen.Kernel.Skeleton
import proofs.«140301_j48567490183709_1_alg».proof.Proof.Gen.Kernel.Launch
import proofs.«140301_j48567490183709_1_alg».proof.Proof.Gen.Kernel.Points
import proofs.«140301_j48567490183709_1_alg».proof.Proof.Gen.Kernel.Frame
import proofs.«140301_j48567490183709_1_alg».proof.Proof.Gen.KernelIdeal
import proofs.«140301_j48567490183709_1_alg».proof.Proof.Gen.KernelIdeal.Skeleton
import proofs.«140301_j48567490183709_1_alg».proof.Proof.Gen.KernelIdeal.Launch
import proofs.«140301_j48567490183709_1_alg».proof.Proof.Gen.KernelIdeal.Points
import proofs.«140301_j48567490183709_1_alg».proof.Proof.Gen.KernelIdeal.Frame
import proofs.«140301_j48567490183709_1_alg».proof.Proof.Gen.ReferenceIdeal
import proofs.«140301_j48567490183709_1_alg».proof.Proof.Gen.Pre_finite_inputs
import proofs.«140301_j48567490183709_1_alg».proof.Proof.ReferenceRun
import proofs.«140301_j48567490183709_1_alg».proof.Proof.ReferenceValue
import proofs.«140301_j48567490183709_1_alg».proof.Proof.KernelRun
import proofs.«140301_j48567490183709_1_alg».proof.Proof.KernelValue
import Idealize.ShloMosaic.Adequacy
import Idealize.ShloMosaic.Init

noncomputable section

namespace Cert.Proof

open Idealize.ShloMosaic Idealize.SL.Sem

/-- The kernel's program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with what it says of the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the six arguments both programs end with the network of those arguments in their
    result buffer, and with the arguments as launched. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5⟩ := hagree c
    rw [Cert.ReferenceIdeal.NetValue.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
